-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S8192x256 : Shape := ⟨2, ![8192, 256]⟩
abbrev S4096x4096 : Shape := ⟨2, ![4096, 4096]⟩
abbrev S32x2 : Shape := ⟨2, ![32, 2]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x2048x4096 .f32) (main_arg1 : FVec F S8192x256 .f32) (main_arg2 : FVec F S4096x4096 .f32) (main_arg3 : IVec S32x2 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4x2048x4096 : Shape := ⟨3, ![4, 2048, 4096]⟩
abbrev S8192x256 : Shape := ⟨2, ![8192, 256]⟩
abbrev S4096x4096 : Shape := ⟨2, ![4096, 4096]⟩
abbrev S32x2 : Shape := ⟨2, ![32, 2]⟩
abbrev S16x256x16x256 : Shape := ⟨4, ![16, 256, 16, 256]⟩
abbrev S16x16x256x256 : Shape := ⟨4, ![16, 16, 256, 256]⟩
abbrev S32x256x256 : Shape := ⟨3, ![32, 256, 256]⟩
abbrev S32x1 : Shape := ⟨2, ![32, 1]⟩
abbrev S32 : Shape := ⟨1, ![32]⟩
abbrev S_ : Shape := ⟨0, ![]⟩
abbrev S8192x4096 : Shape := ⟨2, ![8192, 4096]⟩
abbrev S1024x1024 : Shape := ⟨2, ![1024, 1024]⟩

abbrev nBuf : Space → Nat
  | .hbm => 34
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S8192x256, .f32⟩
  | .hbm, ⟨2, _⟩ => ⟨S4096x4096, .f32⟩
  | .hbm, ⟨3, _⟩ => ⟨S32x2, .i32⟩
  | .hbm, ⟨4, _⟩ => ⟨S16x256x16x256, .f32⟩
  | .hbm, ⟨5, _⟩ => ⟨S16x16x256x256, .f32⟩
  | .hbm, ⟨6, _⟩ => ⟨S32x256x256, .f32⟩
  | .hbm, ⟨7, _⟩ => ⟨S32x1, .i32⟩
  | .hbm, ⟨8, _⟩ => ⟨S32, .i32⟩
  | .hbm, ⟨9, _⟩ => ⟨S32x1, .i32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i1⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S32, .i32⟩
  | .hbm, ⟨18, _⟩ => ⟨S_, .i32⟩
  | .hbm, ⟨19, _⟩ => ⟨S32, .i32⟩
  | .hbm, ⟨20, _⟩ => ⟨S32, .i1⟩
  | .hbm, ⟨21, _⟩ => ⟨S_, .i32⟩
  | .hbm, ⟨22, _⟩ => ⟨S32, .i32⟩
  | .hbm, ⟨23, _⟩ => ⟨S32, .i32⟩
  | .hbm, ⟨24, _⟩ => ⟨S32, .i32⟩
  | .hbm, ⟨25, _⟩ => ⟨S32x1, .i32⟩
  | .hbm, ⟨26, _⟩ => ⟨S32x1, .i32⟩
  | .hbm, ⟨27, _⟩ => ⟨S32x2, .i32⟩
  | .hbm, ⟨28, _⟩ => ⟨S16x16x256x256, .f32⟩
  | .hbm, ⟨29, _⟩ => ⟨S16x256x16x256, .f32⟩
  | .hbm, ⟨30, _⟩ => ⟨S4096x4096, .f32⟩
  | .hbm, ⟨31, _⟩ => ⟨S8192x4096, .f32⟩
  | .hbm, ⟨32, _⟩ => ⟨S8192x4096, .f32⟩
  | .hbm, ⟨33, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S4096x4096_S16x256x16x256 : S4096x4096.ShapeCasts S16x256x16x256
  transposes_S16x256x16x256_S16x16x256x256_0_2_1_3 : S16x256x16x256.Transposes [0, 2, 1, 3] S16x16x256x256
  shapeCasts_S8192x256_S32x256x256 : S8192x256.ShapeCasts S32x256x256
  slices_S32x2_S32x1_0_0 : S32x2.Slices ![0, 0] S32x1
  shapeCasts_S32x1_S32 : S32x1.ShapeCasts S32
  slices_S32x2_S32x1_0_1 : S32x2.Slices ![0, 1] S32x1
  bcast_S_S32 : S_.BroadcastsInDim S32 (![] : Fin 0 → Fin S32.rank)
  bcast_S32_S32x1_0 : S32.BroadcastsInDim S32x1 (![0] : Fin 1 → Fin S32x1.rank)
  concatenates_S32x1_S32x1_S32x2_d1 : Shape.Concatenates [S32x1, S32x1] S32x2 1
  transposes_S16x16x256x256_S16x256x16x256_0_2_1_3 : S16x16x256x256.Transposes [0, 2, 1, 3] S16x256x16x256
  shapeCasts_S16x256x16x256_S4096x4096 : S16x256x16x256.ShapeCasts S4096x4096
  shapeCasts_S4x2048x4096_S8192x4096 : S4x2048x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  shapeCasts_S8192x4096_S4x2048x4096 : S8192x4096.ShapeCasts S4x2048x4096
  scatter_S16x16x256x256_S32x2_S32x256x256_12_01_01_1_wf : ScatterDims.WF S16x16x256x256 S32x2 S32x256x256 [1, 2] [0, 1] [0, 1] 1
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def scatter_S16x16x256x256_S32x2_S32x256x256_12_01_01_1 : ScatterDims S16x16x256x256 S32x2 S32x256x256 where
  updateWindowDims := [1, 2]
  insertedWindowDims := [0, 1]
  scatterDimsToOperandDims := [0, 1]
  indexVectorDim := 1
  wf := scatter_S16x16x256x256_S32x2_S32x256x256_12_01_01_1_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v23) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S8192x256 : Shape := ⟨2, ![8192, 256]⟩
abbrev S4096x4096 : Shape := ⟨2, ![4096, 4096]⟩
abbrev S32x2 : Shape := ⟨2, ![32, 2]⟩
abbrev S16x256x16x256 : Shape := ⟨4, ![16, 256, 16, 256]⟩
abbrev S16x16x256x256 : Shape := ⟨4, ![16, 16, 256, 256]⟩
abbrev S32x256x256 : Shape := ⟨3, ![32, 256, 256]⟩
abbrev S32x1 : Shape := ⟨2, ![32, 1]⟩
abbrev S32 : Shape := ⟨1, ![32]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8192x256, .f32⟩
  | .hbm, ⟨2, _⟩ => ⟨S4096x4096, .f32⟩
  | .hbm, ⟨3, _⟩ => ⟨S32x2, .i32⟩
  | .hbm, ⟨4, _⟩ => ⟨S16x256x16x256, .f32⟩
  | .hbm, ⟨5, _⟩ => ⟨S16x16x256x256, .f32⟩
  | .hbm, ⟨6, _⟩ => ⟨S32x256x256, .f32⟩
  | .hbm, ⟨7, _⟩ => ⟨S32x1, .i32⟩
  | .hbm, ⟨8, _⟩ => ⟨S32, .i32⟩
  | .hbm, ⟨9, _⟩ => ⟨S32x1, .i32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i1⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S32, .i32⟩
  | .hbm, ⟨18, _⟩ => ⟨S_, .i32⟩
  | .hbm, ⟨19, _⟩ => ⟨S32, .i32⟩
  | .hbm, ⟨20, _⟩ => ⟨S32, .i1⟩
  | .hbm, ⟨21, _⟩ => ⟨S_, .i32⟩
  | .hbm, ⟨22, _⟩ => ⟨S32, .i32⟩
  | .hbm, ⟨23, _⟩ => ⟨S32, .i32⟩
  | .hbm, ⟨24, _⟩ => ⟨S32, .i32⟩
  | .hbm, ⟨25, _⟩ => ⟨S32x1, .i32⟩
  | .hbm, ⟨26, _⟩ => ⟨S32x1, .i32⟩
  | .hbm, ⟨27, _⟩ => ⟨S32x2, .i32⟩
  | .hbm, ⟨28, _⟩ => ⟨S16x16x256x256, .f32⟩
  | .hbm, ⟨29, _⟩ => ⟨S16x256x16x256, .f32⟩
  | .hbm, ⟨30, _⟩ => ⟨S4096x4096, .f32⟩
  | .hbm, ⟨31, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  shapeCasts_S4096x4096_S16x256x16x256 : S4096x4096.ShapeCasts S16x256x16x256
  transposes_S16x256x16x256_S16x16x256x256_0_2_1_3 : S16x256x16x256.Transposes [0, 2, 1, 3] S16x16x256x256
  shapeCasts_S8192x256_S32x256x256 : S8192x256.ShapeCasts S32x256x256
  slices_S32x2_S32x1_0_0 : S32x2.Slices ![0, 0] S32x1
  shapeCasts_S32x1_S32 : S32x1.ShapeCasts S32
  slices_S32x2_S32x1_0_1 : S32x2.Slices ![0, 1] S32x1
  bcast_S_S32 : S_.BroadcastsInDim S32 (![] : Fin 0 → Fin S32.rank)
  bcast_S32_S32x1_0 : S32.BroadcastsInDim S32x1 (![0] : Fin 1 → Fin S32x1.rank)
  concatenates_S32x1_S32x1_S32x2_d1 : Shape.Concatenates [S32x1, S32x1] S32x2 1
  transposes_S16x16x256x256_S16x256x16x256_0_2_1_3 : S16x16x256x256.Transposes [0, 2, 1, 3] S16x256x16x256
  shapeCasts_S16x256x16x256_S4096x4096 : S16x256x16x256.ShapeCasts S4096x4096
  scatter_S16x16x256x256_S32x2_S32x256x256_12_01_01_1_wf : ScatterDims.WF S16x16x256x256 S32x2 S32x256x256 [1, 2] [0, 1] [0, 1] 1
  dot_S4x2048x4096_S4096x4096_S4x2048x4096_2_1_01_0_n_n_wf : DotDims.WF S4x2048x4096 S4096x4096 S4x2048x4096 [2] [1] [0, 1] [0] [] []

variable [Facts₀]

def scatter_S16x16x256x256_S32x2_S32x256x256_12_01_01_1 : ScatterDims S16x16x256x256 S32x2 S32x256x256 where
  updateWindowDims := [1, 2]
  insertedWindowDims := [0, 1]
  scatterDimsToOperandDims := [0, 1]
  indexVectorDim := 1
  wf := scatter_S16x16x256x256_S32x2_S32x256x256_12_01_01_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What one grid step of the matrix-product kernel leaves behind, read as values.

  The body keeps a running block in a scratch buffer that survives from one grid step to the next. A step
  first (only when it is the first step along the contraction axis) overwrites the scratch with zeros, then
  stores "scratch + (left block) · (right block)ᵀ" back into the scratch, and finally copies the scratch into
  the output block. So after a step both the scratch and the output block hold the same thing: the step's
  update applied to zero (first step of a run) or to what the previous step left (every other step).
  Nothing here depends on how floats are read: the statements hold for any float instance.
-/
import proofs.«110944_j9801115369812_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The offsets of a whole-buffer access are zero on both axes. -/
theorem hz : (![0, 0] : Fin 2 → Nat) = fun _ => 0 := funext fun a => by fin_cases a <;> rfl

/-- Reading a whole buffer back after a whole-buffer store (whatever was stored before it) returns the stored value. -/
theorem readCov_cons_whole {Val : EltTy → Type} [∀ e, Nonempty (Val e)] {S : Shape} {e : EltTy} {sg : RefSig} {κ : Kind} {sp : Space}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- A step that is not the first of its run: the output block ends at the update of the carried scratch. -/
theorem out_B (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc : ¬cond0_0 i)
    (x0 x1 xs : Vec F S1024x1024 .f32) :
    out0_B_2 c i a3 h3 a4 h4 a5 h5 a6 h6 hc x0 x1 xs = k0_pay2 x0 x1 xs := by
  unfold out0_B_2
  rw [View.read_writes_eq_canon _ _ _ (cover0_B_2 c i a3 h3 a4 h4 a5 h5 a6 h6 hc x0 x1 xs)]
  unfold kernelRun0_B
  dsimp only
  sl_unfold_words
  rw [View.canon_unit_zero hz, View.readCov_unit_zero _ hz]
  simp only [View.readAt_eq_ld, h3.read_unread, h4.read_unread, h6.read_unread, View.ld_unit_zero (S := S1024x1024) hz]

/-- The same step leaves the same value in the scratch. -/
theorem sout_B (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc : ¬cond0_0 i)
    (x0 x1 xs : Vec F S1024x1024 .f32) :
    sout0_B_0 c i a3 h3 a4 h4 a5 h5 a6 h6 hc x0 x1 xs = k0_pay2 x0 x1 xs := by
  unfold sout0_B_0
  rw [View.read_writes_eq_canon _ _ _ (scover0_B_0 c i a3 h3 a4 h4 a5 h5 a6 h6 hc x0 x1 xs)]
  unfold kernelRun0_B
  dsimp only
  sl_unfold_words
  rw [View.canon_unit_zero hz]
  simp only [View.readAt_eq_ld, h3.read_unread, h4.read_unread, h6.read_unread, View.ld_unit_zero (S := S1024x1024) hz]

/-- The first step of a run: the scratch is zeroed first, so the output block ends at the update of the zero block. -/
theorem out_A (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc : cond0_0 i)
    (x0 x1 : Vec F S1024x1024 .f32) :
    out0_A_2 c i a3 h3 a4 h4 a5 h5 a6 h6 hc x0 x1 = k0_pay2 x0 x1 k0_pay1 := by
  unfold out0_A_2
  rw [View.read_writes_eq_canon _ _ _ (cover0_A_2 c i a3 h3 a4 h4 a5 h5 a6 h6 hc x0 x1)]
  unfold kernelRun0_A
  dsimp only
  sl_unfold_words
  rw [View.canon_unit_zero hz, readCov_cons_whole _ hz, View.readCov_unit_zero _ hz]
  simp only [View.readAt_eq_ld, h3.read_unread, h4.read_unread, View.ld_unit_zero (S := S1024x1024) hz]

/-- The same step leaves the same value in the scratch. -/
theorem sout_A (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc : cond0_0 i)
    (x0 x1 : Vec F S1024x1024 .f32) :
    sout0_A_0 c i a3 h3 a4 h4 a5 h5 a6 h6 hc x0 x1 = k0_pay2 x0 x1 k0_pay1 := by
  unfold sout0_A_0
  rw [View.read_writes_eq_canon _ _ _ (scover0_A_0 c i a3 h3 a4 h4 a5 h5 a6 h6 hc x0 x1)]
  unfold kernelRun0_A
  dsimp only
  sl_unfold_words
  rw [View.canon_cons_unit_zero hz, View.readCov_unit_zero _ hz]
  simp only [View.readAt_eq_ld, h3.read_unread, h4.read_unread, View.ld_unit_zero (S := S1024x1024) hz]

end Cert.KernelIdeal.Pieces

end
-- ==== Proof.LibOneAxisDot.lean ====
/-
  A matrix product that contracts ONE axis, read at one output index, at the extended reals.

  Whatever the dimension numbers are (which axis of each operand is contracted, in which order the free axes
  appear in the result), once the contraction has a single axis of extent K the product's entry at an output
  index j is a sum over k < K of a left entry times a right entry: the left operand read at the index the
  dimension numbers assign to (j, k), the right operand likewise. The two families of operand indices are
  parameters here; each concrete product supplies them (for x · wᵀ they are (r, k) and (c, k), for x · w they
  are (r, k) and (k, c)). No finiteness is asked of any entry: only the index set of the sum is renamed.
-/
import Idealize.ShloMosaic.PureOps.Ideal.Laws
import Idealize.ShloMosaic.Lib.ValueIdx

noncomputable section

open scoped BigOperators

namespace Cert.Lib.OneAxisDot

open Idealize.ShloMosaic Idealize.ShloMosaic.ValueIdx

/-- The contraction's sum, indexed by the dimension numbers' own one-axis contraction index, is the sum over
    k < K of l(li k) · r(ri k), when li k and ri k are the operand indices at the k-th contraction index. -/
theorem contraction_sum_at {sl sr so : Shape} (d : DotDims sl sr so) (K : Nat) (hr : d.contr.rank = 1)
    (hs : d.contr.size ⟨0, by omega⟩ = K) (l : sl.Idx → EReal) (r : sr.Idx → EReal) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    ∑ q : d.contr.Idx, l (d.lhsIdx j q) * r (d.rhsIdx j q) = ∑ k : Fin K, l (li k) * r (ri k) := by
  rw [← Equiv.sum_comp (contrEquiv1 d K hr hs).symm]
  exact Finset.sum_congr rfl fun k _ => by rw [hl k, hrr k]

/-- A matrix unit's product accumulated into the zero matrix, at output index j: the zero adds nothing, and the
    rest is the contraction's sum. -/
theorem matmul_zero_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    matmul d prec l r (constant so .f32 0x00000000#32) j = ∑ k : Fin K, l (li k) * r (ri k) :=
  (Ideal.matmul_constant_zero_apply d prec l r j).trans (contraction_sum_at d K hr hs l r j li ri hl hrr)

/-- The host's dot_general at output index j: the same sum, with no accumulator. -/
theorem dotGeneral_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    Host.dotGeneral d prec l r j = ∑ k : Fin K, l (li k) * r (ri k) :=
  (Ideal.dotGeneral_apply d prec .single l r j).trans (contraction_sum_at d K hr hs l r j li ri hl hrr)

end Cert.Lib.OneAxisDot

end
-- ==== Proof.Payload.lean ====
/-
  One grid step's update, entry by entry, at the extended reals.

  The update a step applies to the carried block C is  C + A · Bᵀ,  where A is the step's block of the left
  matrix and B its block of the right matrix: the (p, q) entry becomes
      C(p, q) + Σ_{k < 1024} A(p, k) · B(q, k).
  Narrowing the operands to a shorter float format changes nothing at the extended reals, the product's own
  accumulator is the zero matrix and adds nothing, and the reshapes are between equal shapes. The block the
  first step of a run starts from is the zero block.
-/
import proofs.«110944_j9801115369812_1_alg».proof.Proof.Gen.KernelIdeal.Skeleton
import proofs.«110944_j9801115369812_1_alg».proof.Proof.LibOneAxisDot
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-- The left operand's row coordinate is the output's row coordinate. -/
theorem lhs_row (j : S1024x1024.Idx) (x : dot_S1024x1024_S1024x1024_S1024x1024_1_1_0_0_n_n.contr.Idx) :
    (dot_S1024x1024_S1024x1024_S1024x1024_1_1_0_0_n_n.lhsIdx j x 0).val = (j 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- The left operand's column coordinate is the contraction position. -/
theorem lhs_col (j : S1024x1024.Idx) (x : dot_S1024x1024_S1024x1024_S1024x1024_1_1_0_0_n_n.contr.Idx) :
    (dot_S1024x1024_S1024x1024_S1024x1024_1_1_0_0_n_n.lhsIdx j x 1).val = (x ⟨0, by decide⟩).val :=
  dot_S1024x1024_S1024x1024_S1024x1024_1_1_0_0_n_n.lhsIdx_val_of_single rfl j x

/-- The right operand's row coordinate is the output's COLUMN coordinate: the right block enters transposed. -/
theorem rhs_row (j : S1024x1024.Idx) (x : dot_S1024x1024_S1024x1024_S1024x1024_1_1_0_0_n_n.contr.Idx) :
    (dot_S1024x1024_S1024x1024_S1024x1024_1_1_0_0_n_n.rhsIdx j x 0).val = (j 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- The right operand's column coordinate is the contraction position. -/
theorem rhs_col (j : S1024x1024.Idx) (x : dot_S1024x1024_S1024x1024_S1024x1024_1_1_0_0_n_n.contr.Idx) :
    (dot_S1024x1024_S1024x1024_S1024x1024_1_1_0_0_n_n.rhsIdx j x 1).val = (x ⟨0, by decide⟩).val :=
  dot_S1024x1024_S1024x1024_S1024x1024_1_1_0_0_n_n.rhsIdx_val_of_single rfl j x

/-- The left operand's index at output entry (p, q) and contraction position k is (p, k). -/
theorem lhs_at (p q : Fin 1024) (k : Fin 1024) :
    dot_S1024x1024_S1024x1024_S1024x1024_1_1_0_0_n_n.lhsIdx (ix2 p q)
      ((contrEquiv1 dot_S1024x1024_S1024x1024_S1024x1024_1_1_0_0_n_n 1024 rfl rfl).symm k) = ix2 p k := by
  have hk := contrEquiv1_symm_val dot_S1024x1024_S1024x1024_S1024x1024_1_1_0_0_n_n 1024 rfl rfl k
  funext a
  apply Fin.ext
  match a with
  | ⟨0, _⟩ => exact lhs_row _ _
  | ⟨1, _⟩ => exact (lhs_col _ _).trans hk

/-- The right operand's index at output entry (p, q) and contraction position k is (q, k). -/
theorem rhs_at (p q : Fin 1024) (k : Fin 1024) :
    dot_S1024x1024_S1024x1024_S1024x1024_1_1_0_0_n_n.rhsIdx (ix2 p q)
      ((contrEquiv1 dot_S1024x1024_S1024x1024_S1024x1024_1_1_0_0_n_n 1024 rfl rfl).symm k) = ix2 q k := by
  have hk := contrEquiv1_symm_val dot_S1024x1024_S1024x1024_S1024x1024_1_1_0_0_n_n 1024 rfl rfl k
  funext a
  apply Fin.ext
  match a with
  | ⟨0, _⟩ => exact rhs_row _ _
  | ⟨1, _⟩ => exact (rhs_col _ _).trans hk

/-- The update of the carried block C by the blocks A and B, at entry (p, q): C(p, q) + Σ_k A(p, k) · B(q, k). -/
theorem update_apply (A B C : Vec Ideal S1024x1024 .f32) (p q : Fin 1024) :
    k0_pay2 (F := Ideal) A B C (ix2 p q) = C (ix2 p q) + ∑ k : Fin 1024, A (ix2 p k) * B (ix2 q k) := by
  unfold k0_pay2
  simp only [shapeCast_self]
  rw [addf_apply]
  refine congrArg (C (ix2 p q) + ·) ?_
  exact Cert.Lib.OneAxisDot.matmul_zero_apply_at dot_S1024x1024_S1024x1024_S1024x1024_1_1_0_0_n_n 1024 rfl rfl none _ _
    (ix2 p q) (fun k => ix2 p k) (fun k => ix2 q k) (lhs_at p q) (rhs_at p q)

/-- The block a run starts from is zero at every entry. -/
theorem start_apply (j : S1024x1024.Idx) : k0_pay1 (F := Ideal) j = 0 := by
  unfold k0_pay1
  simp only [shapeCast_self]
  exact Ideal.ofBits_zero_f32

end Cert.KernelIdeal.Payload

end
-- ==== Proof.LibBlockSum.lean ====
/-
  Dot products of matrix rows, cut into consecutive stretches of columns.

  For matrices X (A × K) and W (B × K) of extended reals the product X · Wᵀ has, at (a, b), the dot product of
  row a of X with row b of W. Summing the first n columns only gives a partial dot product; adding the next T
  columns to it gives the partial dot product over n + T columns. That is all a blocked matrix product does
  along its contraction axis, and it needs nothing but the associativity and commutativity of addition, which
  hold on the extended reals with the infinities included: no entry has to be finite.

  To speak of "row r, column k" for arbitrary naturals, a matrix is continued by zero outside its extents.
-/
import Idealize.ShloMosaic.Lib.ValueIdx
import Idealize.ShloMosaic.PureOps.Ideal

noncomputable section

open scoped BigOperators

namespace Cert.BlockSum

open Idealize.ShloMosaic Idealize.ShloMosaic.ValueIdx

/-- A matrix continued by zero outside its extents: it can be read at any pair of naturals. -/
def ext2 {A B : Nat} (X : (⟨2, ![A, B]⟩ : Shape).Idx → EReal) (r k : ℕ) : EReal :=
  if h : r < A ∧ k < B then X (ix2 ⟨r, h.1⟩ ⟨k, h.2⟩) else 0

/-- Inside the extents the continuation is the matrix. -/
theorem ext2_val {A B : Nat} (X : (⟨2, ![A, B]⟩ : Shape).Idx → EReal) (a : Fin A) (b : Fin B) :
    ext2 X a.val b.val = X (ix2 a b) := by
  unfold ext2
  rw [dif_pos ⟨a.isLt, b.isLt⟩]

/-- An entry, read by the values of its index's two coordinates. -/
theorem apply_eq_ext2 {A B : Nat} (X : (⟨2, ![A, B]⟩ : Shape).Idx → EReal) (i : (⟨2, ![A, B]⟩ : Shape).Idx)
    (r k : ℕ) (hr : (i 0).val = r) (hk : (i 1).val = k) : X i = ext2 X r k := by
  subst hr hk
  unfold ext2
  rw [dif_pos (⟨(i 0).isLt, (i 1).isLt⟩ : (i 0).val < A ∧ (i 1).val < B)]
  refine congrArg X (funext fun d => ?_)
  match d with
  | ⟨0, _⟩ => rfl
  | ⟨1, _⟩ => rfl

/-- An entry at an index known by its two coordinates. -/
theorem apply_of_eq_ix2 {A B : Nat} (X : (⟨2, ![A, B]⟩ : Shape).Idx → EReal) (i : (⟨2, ![A, B]⟩ : Shape).Idx)
    (r k : ℕ) (hr : r < A) (hk : k < B) (hi : i = ix2 ⟨r, hr⟩ ⟨k, hk⟩) : X i = ext2 X r k := by
  subst hi
  exact (ext2_val X ⟨r, hr⟩ ⟨k, hk⟩).symm

/-- Row r of X against row o of W over the first n columns. -/
def rowDot {A B K : Nat} (X : (⟨2, ![A, K]⟩ : Shape).Idx → EReal) (W : (⟨2, ![B, K]⟩ : Shape).Idx → EReal)
    (r o n : ℕ) : EReal :=
  ∑ k ∈ Finset.range n, ext2 X r k * ext2 W o k

/-- Over no column the partial dot product is zero. -/
theorem rowDot_zero {A B K : Nat} (X : (⟨2, ![A, K]⟩ : Shape).Idx → EReal) (W : (⟨2, ![B, K]⟩ : Shape).Idx → EReal)
    (r o : ℕ) : rowDot X W r o 0 = 0 := by
  unfold rowDot
  rw [Finset.range_zero, Finset.sum_empty]

/-- The next T columns added to the partial dot product over n columns give the one over n + T columns. -/
theorem rowDot_add {A B K : Nat} (X : (⟨2, ![A, K]⟩ : Shape).Idx → EReal) (W : (⟨2, ![B, K]⟩ : Shape).Idx → EReal)
    (r o n T : ℕ) :
    rowDot X W r o n + ∑ k : Fin T, ext2 X r (n + k.val) * ext2 W o (n + k.val) = rowDot X W r o (n + T) := by
  unfold rowDot
  rw [Finset.sum_range_add, Finset.sum_range (fun x => ext2 X r (n + x) * ext2 W o (n + x))]

/-- The product X · Wᵀ: at (a, b) the dot product of row a of X with row b of W. -/
def mulT {A B K : Nat} (X : (⟨2, ![A, K]⟩ : Shape).Idx → EReal) (W : (⟨2, ![B, K]⟩ : Shape).Idx → EReal) :
    (⟨2, ![A, B]⟩ : Shape).Idx → EReal :=
  fun j => ∑ k : Fin K, X (ix2 (j 0) k) * W (ix2 (j 1) k)

/-- Its entry is the partial dot product over all K columns. -/
theorem mulT_eq_rowDot {A B K : Nat} (X : (⟨2, ![A, K]⟩ : Shape).Idx → EReal) (W : (⟨2, ![B, K]⟩ : Shape).Idx → EReal)
    (j : (⟨2, ![A, B]⟩ : Shape).Idx) (r o : ℕ) (hr : (j 0).val = r) (ho : (j 1).val = o) :
    mulT X W j = rowDot X W r o K := by
  subst hr ho
  unfold mulT rowDot
  rw [Finset.sum_range (fun k => ext2 X (j 0).val k * ext2 W (j 1).val k)]
  exact Finset.sum_congr rfl fun k _ =>
    congrArg₂ (· * ·) (ext2_val X (j 0) k).symm (ext2_val W (j 1) k).symm

end Cert.BlockSum

end
-- ==== Proof.BlockRead.lean ====
/-
  Which entries of the two matrices a grid step's blocks hold.

  The grid runs over (row block i, column block j, contraction block s), the last fastest, so step number n has
  i = n / 16, j = n / 4 mod 4, s = n mod 4. With X the left matrix (8192 × 4096) and W the right one
  (4096 × 4096) as the kernel finds them, the step's left block is rows 1024·i … and columns 1024·s … of X,
  its right block rows 1024·j … and the same columns of W: entry y of a block sits at block index × 1024 + y
  on each axis. The two matrices are named once and never opened here: only where an entry sits matters.
-/
import proofs.«110944_j9801115369812_1_alg».proof.Proof.Gen.KernelIdeal.Frame
import proofs.«110944_j9801115369812_1_alg».proof.Proof.LibBlockSum
import Idealize.ShloMosaic.Lib.Pipeline.Value

noncomputable section

open Idealize.ShloMosaic Idealize.ShloMosaic.TcCoe Idealize.SL.Sem Idealize.ShloMosaic.ValueIdx

namespace Cert.KernelIdeal.Accumulated

open Cert.KernelIdeal Cert.KernelIdeal.Gen Cert.BlockSum

/-- Which block each window is on at step n: rows n / 16 and columns n mod 4 of the left matrix, rows
    n / 4 mod 4 and columns n mod 4 of the right one, rows n / 16 and columns n / 4 mod 4 of the result. -/
theorem idx_facts : ∀ t : Fin cfg0.N, win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = t.val / 4 % 4 :=
  (by decide +kernel : ∀ t : Fin grid0.N, _)

/-- Entry y of the left window's block at step t, in any 8192 × 4096 array: row 1024·(t / 16) + y₀,
    column 1024·(t mod 4) + y₁. -/
theorem lhs_emb (X : S8192x4096.Idx → EReal) (t : Fin cfg0.N) (y : S1024x1024.Idx) :
    X (((cfg0.win 0).blk t).view.emb y)
      = ext2 X (t.val / 16 * 1024 + (y 0).val) (t.val % 4 * 1024 + (y 1).val) := by
  obtain ⟨e0, e1, -⟩ := idx_facts t
  have hN : t.val < 128 := lt_of_lt_of_eq t.isLt (show cfg0.N = 128 from N_0)
  have h0 : (y 0).val < 1024 := (y 0).isLt
  have h1 : (y 1).val < 1024 := (y 1).isLt
  have hr : t.val / 16 * 1024 + (y 0).val < 8192 := by omega
  have hk : t.val % 4 * 1024 + (y 1).val < 4096 := by omega
  have hidx : ((cfg0.win 0).blk t).view.emb y
      = (ix2 ⟨t.val / 16 * 1024 + (y 0).val, hr⟩ ⟨t.val % 4 * 1024 + (y 1).val, hk⟩ : S8192x4096.Idx) := by
    funext a
    apply Fin.ext
    match a with
    | ⟨0, _⟩ => show win0_0.index t (0 : Fin 2) * 1024 + 1 * (y 0).val = t.val / 16 * 1024 + (y 0).val; rw [e0]; omega
    | ⟨1, _⟩ => show win0_0.index t (1 : Fin 2) * 1024 + 1 * (y 1).val = t.val % 4 * 1024 + (y 1).val; rw [e1]; omega
  exact apply_of_eq_ix2 X _ _ _ hr hk hidx

/-- Entry y of the right window's block at step t, in any 4096 × 4096 array: row 1024·(t / 4 mod 4) + y₀,
    column 1024·(t mod 4) + y₁. -/
theorem rhs_emb (X : S4096x4096.Idx → EReal) (t : Fin cfg0.N) (y : S1024x1024.Idx) :
    X (((cfg0.win 1).blk t).view.emb y)
      = ext2 X (t.val / 4 % 4 * 1024 + (y 0).val) (t.val % 4 * 1024 + (y 1).val) := by
  obtain ⟨-, -, e0, e1, -⟩ := idx_facts t
  have hN : t.val < 128 := lt_of_lt_of_eq t.isLt (show cfg0.N = 128 from N_0)
  have h0 : (y 0).val < 1024 := (y 0).isLt
  have h1 : (y 1).val < 1024 := (y 1).isLt
  have hr : t.val / 4 % 4 * 1024 + (y 0).val < 4096 := by omega
  have hk : t.val % 4 * 1024 + (y 1).val < 4096 := by omega
  have hidx : ((cfg0.win 1).blk t).view.emb y
      = (ix2 ⟨t.val / 4 % 4 * 1024 + (y 0).val, hr⟩ ⟨t.val % 4 * 1024 + (y 1).val, hk⟩ : S4096x4096.Idx) := by
    funext a
    apply Fin.ext
    match a with
    | ⟨0, _⟩ => show win0_1.index t (0 : Fin 2) * 1024 + 1 * (y 0).val = t.val / 4 % 4 * 1024 + (y 0).val; rw [e0]; omega
    | ⟨1, _⟩ => show win0_1.index t (1 : Fin 2) * 1024 + 1 * (y 1).val = t.val % 4 * 1024 + (y 1).val; rw [e1]; omega
  exact apply_of_eq_ix2 X _ _ _ hr hk hidx

variable (m : (ℓ : Loc nD τ sig) → Buf (Elt Ideal) ℓ)

/-- The left matrix as the kernel finds it (the array its first window reads). -/
def lhsMat (c : Dev nD) : S8192x4096.Idx → EReal := V m c (Pipeline.arrRef spec0 0)
/-- The right matrix as the kernel finds it (the array its second window reads). -/
def rhsMat (c : Dev nD) : S4096x4096.Idx → EReal := V m c (Pipeline.arrRef spec0 1)

theorem lhsMat_eq (c : Dev nD) : lhsMat m c = V m c (Pipeline.arrRef spec0 0) := rfl
theorem rhsMat_eq (c : Dev nD) : rhsMat m c = V m c (Pipeline.arrRef spec0 1) := rfl

-- from here on the two matrices are names: what they hold is read only through the two equations above
attribute [irreducible] lhsMat rhsMat

/-- The left block at step t, entry y: X at row 1024·(t / 16) + y₀, column 1024·(t mod 4) + y₁. -/
theorem lhsBlock_apply (c : Dev nD) (t : Fin cfg0.N) (y : S1024x1024.Idx) :
    (iblk m c 0 t : Vec Ideal S1024x1024 .f32) y
      = ext2 (lhsMat m c) (t.val / 16 * 1024 + (y 0).val) (t.val % 4 * 1024 + (y 1).val) := by
  unfold iblk
  rw [View.read_apply, ← lhsMat_eq m c]
  exact (cast_eq _ _).trans (lhs_emb (lhsMat m c) t y)

/-- The right block at step t, entry y: W at row 1024·(t / 4 mod 4) + y₀, column 1024·(t mod 4) + y₁. -/
theorem rhsBlock_apply (c : Dev nD) (t : Fin cfg0.N) (y : S1024x1024.Idx) :
    (iblk m c 1 t : Vec Ideal S1024x1024 .f32) y
      = ext2 (rhsMat m c) (t.val / 4 % 4 * 1024 + (y 0).val) (t.val % 4 * 1024 + (y 1).val) := by
  unfold iblk
  rw [View.read_apply, ← rhsMat_eq m c]
  exact (cast_eq _ _).trans (rhs_emb (rhsMat m c) t y)

end Cert.KernelIdeal.Accumulated

end
-- ==== Proof.Accumulated.lean ====
/-
  What the output block holds after each grid step: a partial dot product.

  The grid runs over (row block i, column block j, contraction block s), the last fastest, so step number n has
  i = n / 16, j = n / 4 mod 4, s = n mod 4. With X the left matrix (8192 × 4096) and W the right one
  (4096 × 4096) as the kernel finds them, the step's left block holds rows 1024·i … of X and columns 1024·s … ,
  its right block rows 1024·j … of W and the same columns. The claim, by induction on the step number: after
  step n the output block (and the carried scratch) holds, at (p, q), the dot product of row 1024·i + p of X
  with row 1024·j + q of W over the first 1024·(s + 1) columns. A run's first step starts from zero; every
  later step adds the next 1024 columns to what the step before left.
-/
import proofs.«110944_j9801115369812_1_alg».proof.Proof.Pieces
import proofs.«110944_j9801115369812_1_alg».proof.Proof.Payload
import proofs.«110944_j9801115369812_1_alg».proof.Proof.LibBlockSum
import proofs.«110944_j9801115369812_1_alg».proof.Proof.BlockRead

noncomputable section

open scoped BigOperators
open Idealize.ShloMosaic Idealize.ShloMosaic.TcCoe Idealize.SL.Sem Idealize.ShloMosaic.ValueIdx

namespace Cert.KernelIdeal.Accumulated

open Cert.KernelIdeal Cert.KernelIdeal.Gen Cert.BlockSum

/-- One step's update in terms of partial dot products: if the left block's row p holds columns n … n + 1023 of
    row r0 + p of X, the right block's row q the same columns of row o0 + q of W, and the carried entry the
    dot product over the first n columns, the updated entry is the dot product over the first n + 1024. -/
theorem step_apply (X : S8192x4096.Idx → EReal) (W : S4096x4096.Idx → EReal) (A B C : Vec Ideal S1024x1024 .f32)
    (r0 o0 n : ℕ) (p q : Fin 1024)
    (hA : ∀ k : Fin 1024, A (ix2 p k) = ext2 X (r0 + p.val) (n + k.val))
    (hB : ∀ k : Fin 1024, B (ix2 q k) = ext2 W (o0 + q.val) (n + k.val))
    (hC : C (ix2 p q) = rowDot X W (r0 + p.val) (o0 + q.val) n) :
    k0_pay2 (F := Ideal) A B C (ix2 p q) = rowDot X W (r0 + p.val) (o0 + q.val) (n + 1024) := by
  rw [Payload.update_apply, hC, ← rowDot_add]
  refine congrArg _ (Finset.sum_congr rfl fun k _ => ?_)
  rw [hA k, hB k]

variable (m : (ℓ : Loc nD τ sig) → Buf (Elt Ideal) ℓ)

/-- The partial dot product step n is at, for entry (p, q) of its output block. -/
def partialAt (c : Dev nD) (n : ℕ) (p q : Fin 1024) : EReal :=
  rowDot (lhsMat m c) (rhsMat m c) (n / 16 * 1024 + p.val) (n / 4 % 4 * 1024 + q.val) ((n % 4 + 1) * 1024)

/-- The update at step t of a carried block whose entry is the dot product over the columns before the step's. -/
theorem update_at (c : Dev nD) (t : Fin cfg0.N) (C : Vec Ideal S1024x1024 .f32) (p q : Fin 1024)
    (hC : C (ix2 p q) = rowDot (lhsMat m c) (rhsMat m c) (t.val / 16 * 1024 + p.val) (t.val / 4 % 4 * 1024 + q.val) (t.val % 4 * 1024)) :
    k0_pay2 (F := Ideal) (iblk m c 0 t) (iblk m c 1 t) C (ix2 p q) = partialAt m c t.val p q := by
  unfold partialAt
  rw [show (t.val % 4 + 1) * 1024 = t.val % 4 * 1024 + 1024 from by omega]
  exact step_apply (lhsMat m c) (rhsMat m c) (iblk m c 0 t) (iblk m c 1 t) C (t.val / 16 * 1024) (t.val / 4 % 4 * 1024)
    (t.val % 4 * 1024) p q (fun k => lhsBlock_apply m c t (ix2 p k)) (fun k => rhsBlock_apply m c t (ix2 q k)) hC

/-- At a run's first step the block started from is zero, the dot product over no column. -/
theorem start_zero (c : Dev nD) (t : Fin cfg0.N) (h0 : t.val % 4 = 0) (p q : Fin 1024) :
    k0_pay1 (F := Ideal) (ix2 p q)
      = rowDot (lhsMat m c) (rhsMat m c) (t.val / 16 * 1024 + p.val) (t.val / 4 % 4 * 1024 + q.val) (t.val % 4 * 1024) := by
  rw [Payload.start_apply, h0, Nat.zero_mul, rowDot_zero]

/-- So the first step's update of the zero block is the dot product over the first 1024 columns. -/
theorem first_key (c : Dev nD) (t : Fin cfg0.N) (h0 : t.val % 4 = 0) (p q : Fin 1024) :
    k0_pay2 (F := Ideal) (iblk m c 0 t) (iblk m c 1 t) (k0_pay1 (F := Ideal)) (ix2 p q) = partialAt m c t.val p q :=
  update_at m c t (k0_pay1 (F := Ideal)) p q (start_zero m c t h0 p q)

/-- A later step's update of what the step before left. -/
theorem later_key (c : Dev nD) (t : Fin cfg0.N) (h0 : ¬t.val % 4 = 0) (C : Vec Ideal S1024x1024 .f32) (p q : Fin 1024)
    (ih : C (ix2 p q) = partialAt m c (t.val - 1) p q) :
    k0_pay2 (F := Ideal) (iblk m c 0 t) (iblk m c 1 t) C (ix2 p q) = partialAt m c t.val p q := by
  refine update_at m c t C p q (ih.trans ?_)
  unfold partialAt
  rw [show (t.val - 1) / 16 = t.val / 16 from by omega, show (t.val - 1) / 4 % 4 = t.val / 4 % 4 from by omega,
    show ((t.val - 1) % 4 + 1) * 1024 = t.val % 4 * 1024 from by omega]

/-- A run's first step (t mod 4 = 0): zero plus the first 1024 columns. -/
theorem at_first (c : Dev nD) (t : Fin cfg0.N) (h0 : t.val % 4 = 0) (p q : Fin 1024) :
    (outsAt0 m c t.val t.isLt).1 (ix2 p q) = partialAt m c t.val p q
      ∧ (outsAt0 m c t.val t.isLt).2 (ix2 p q) = partialAt m c t.val p q := by
  have key := first_key m c t h0 p q
  rw [outsAt0_A m c t h0]
  dsimp only
  exact ⟨(congrFun (Pieces.out_A (F := Ideal) c (grid0.coords t) (ms0_0 t) (hs0_0 t) (ms0_1 t) (hs0_1 t) (ms0_2 t) (hs0_2 t) scM0_0
      (Memref.isWhole_whole _) ((hcond0_0 t).mpr h0) (iblk m c 0 t) (iblk m c 1 t)) (ix2 p q)).trans key,
    (congrFun (Pieces.sout_A (F := Ideal) c (grid0.coords t) (ms0_0 t) (hs0_0 t) (ms0_1 t) (hs0_1 t) (ms0_2 t) (hs0_2 t) scM0_0
      (Memref.isWhole_whole _) ((hcond0_0 t).mpr h0) (iblk m c 0 t) (iblk m c 1 t)) (ix2 p q)).trans key⟩

/-- A later step of a run (t mod 4 ≠ 0): what the step before left, plus the next 1024 columns. -/
theorem at_later (c : Dev nD) (t : Fin cfg0.N) (h0 : ¬t.val % 4 = 0) (p q : Fin 1024)
    (ih : (outsAt0 m c (t.val - 1) (Nat.lt_of_le_of_lt (Nat.sub_le _ _) t.isLt)).2 (ix2 p q) = partialAt m c (t.val - 1) p q) :
    (outsAt0 m c t.val t.isLt).1 (ix2 p q) = partialAt m c t.val p q
      ∧ (outsAt0 m c t.val t.isLt).2 (ix2 p q) = partialAt m c t.val p q := by
  have key := later_key m c t h0 (outsAt0 m c (t.val - 1) (Nat.lt_of_le_of_lt (Nat.sub_le _ _) t.isLt)).2 p q ih
  rw [outsAt0_B m c t h0]
  dsimp only
  exact ⟨(congrFun (Pieces.out_B (F := Ideal) c (grid0.coords t) (ms0_0 t) (hs0_0 t) (ms0_1 t) (hs0_1 t) (ms0_2 t) (hs0_2 t) scM0_0
      (Memref.isWhole_whole _) (fun h => h0 ((hcond0_0 t).mp h)) (iblk m c 0 t) (iblk m c 1 t)
      (outsAt0 m c (t.val - 1) (Nat.lt_of_le_of_lt (Nat.sub_le _ _) t.isLt)).2) (ix2 p q)).trans key,
    (congrFun (Pieces.sout_B (F := Ideal) c (grid0.coords t) (ms0_0 t) (hs0_0 t) (ms0_1 t) (hs0_1 t) (ms0_2 t) (hs0_2 t) scM0_0
      (Memref.isWhole_whole _) (fun h => h0 ((hcond0_0 t).mp h)) (iblk m c 0 t) (iblk m c 1 t)
      (outsAt0 m c (t.val - 1) (Nat.lt_of_le_of_lt (Nat.sub_le _ _) t.isLt)).2) (ix2 p q)).trans key⟩

/-- After step n the output block and the carried scratch both hold the partial dot products step n is at. -/
theorem outs_eq (c : Dev nD) : ∀ (n : ℕ) (h : n < cfg0.N) (p q : Fin 1024),
    (outsAt0 m c n h).1 (ix2 p q) = partialAt m c n p q ∧ (outsAt0 m c n h).2 (ix2 p q) = partialAt m c n p q
  | 0, h, p, q => at_first m c ⟨0, h⟩ rfl p q
  | n + 1, h, p, q => by
    by_cases h0 : (n + 1) % 4 = 0
    · exact at_first m c ⟨n + 1, h⟩ h0 p q
    · exact at_later m c ⟨n + 1, h⟩ h0 p q (outs_eq c n (Nat.lt_of_succ_lt h) p q).2

end Cert.KernelIdeal.Accumulated

end
-- ==== Proof.Result.lean ====
/-
  The kernel's result as one function of what the region finds.

  Every fourth grid step (the last of a run along the contraction axis) writes its output block back. By then
  the block holds full dot products over all 4096 columns, so the block written back at row block i, column
  block j is that block of the product X · Wᵀ. The 32 written blocks tile the 8192 × 4096 result, so the
  result array ends at X · Wᵀ, and the program's last line reshapes it to 4 × 2048 × 4096.
-/
import proofs.«110944_j9801115369812_1_alg».proof.Proof.Accumulated
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.BlockSum Cert.KernelIdeal.Accumulated

variable (m : (ℓ : Loc nD τ sig) → Buf (Elt Ideal) ℓ) (ρ : Dev nD → PrngReg)

/-- The product of the left matrix with the transposed right matrix, as the region finds them. -/
abbrev product (c : Dev nD) : S8192x4096.Idx → EReal := mulT (lhsMat m c) (rhsMat m c)

/-- What a writing step writes back is its block of the product. -/
theorem flushed_eq (c : Dev nD) (t : Fin cfg0.N) (hf : (cfg0.win 2).flush t = true) :
    (dats m 0 c).flushed 2 t = ((cfg0.win 2).blk t).view.read (Elt Ideal) (product m c) := by
  have h3 : t.val % 4 = 3 := (flush0_2 t).mp hf
  have hN : t.val < 128 := lt_of_lt_of_eq t.isLt (show cfg0.N = 128 from N_0)
  obtain ⟨-, -, -, -, e0, e1⟩ := idx_facts t
  show (cfg0.win 2).cut (grid0.coords t) ((dats m 0 c).after 2 t) = _
  rw [after0_2]
  funext y
  rw [View.read_apply]
  show (outsAt0 m c t.val t.isLt).1 y = product m c (((cfg0.win 2).blk t).view.emb y)
  have h0 : (y 0).val < 1024 := (y 0).isLt
  have h1 : (y 1).val < 1024 := (y 1).isLt
  have hy : y = (ix2 (y 0) (y 1) : S1024x1024.Idx) := eq_ix2 y
  have hl : (outsAt0 m c t.val t.isLt).1 y = partialAt m c t.val (y 0) (y 1) := by
    rw [hy]; exact (outs_eq m c t.val t.isLt (y 0) (y 1)).1
  rw [hl]
  unfold partialAt
  rw [show (t.val % 4 + 1) * 1024 = 4096 from by omega]
  refine (mulT_eq_rowDot _ _ _ _ _ ?_ ?_).symm
  · show win0_2.index t (0 : Fin 2) * 1024 + 1 * (y 0).val = _
    rw [e0]; omega
  · show win0_2.index t (1 : Fin 2) * 1024 + 1 * (y 1).val = _
    rw [e1]; omega

/-- An index of the result is in step t's block iff each coordinate is in the block's range. -/
theorem mem_blk (t : Fin cfg0.N) (i : S8192x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v24).slice (win0_2.rect t)).set ↔ _
  rw [View.set_slice_whole, Rect.mem_set_unit]
  exact Iff.rfl

/-- Every index of the result lies in the block of a writing step: row block r / 1024, column block o / 1024,
    last contraction block. -/
theorem cover (i : S8192x4096.Idx) :
    ∃ t : Fin cfg0.N, (cfg0.win 2).flush t = true ∧ i ∈ ((cfg0.win 2).blk t).view.set := by
  have h0 : (i 0).val < 8192 := (i 0).isLt
  have h1 : (i 1).val < 4096 := (i 1).isLt
  have hN : cfg0.N = 128 := N_0
  have hlt : (i 0).val / 1024 * 16 + (i 1).val / 1024 * 4 + 3 < cfg0.N := by rw [hN]; omega
  obtain ⟨-, -, -, -, e0, e1⟩ := idx_facts ⟨(i 0).val / 1024 * 16 + (i 1).val / 1024 * 4 + 3, hlt⟩
  refine ⟨⟨(i 0).val / 1024 * 16 + (i 1).val / 1024 * 4 + 3, hlt⟩, (flush0_2 _).mpr ?_, ?_⟩
  · show ((i 0).val / 1024 * 16 + (i 1).val / 1024 * 4 + 3) % 4 = 3
    omega
  · rw [mem_blk]
    intro a
    match a with
    | ⟨0, _⟩ =>
      show win0_2.index ⟨(i 0).val / 1024 * 16 + (i 1).val / 1024 * 4 + 3, hlt⟩ (0 : Fin 2) * 1024 ≤ (i 0).val
        ∧ (i 0).val < win0_2.index ⟨(i 0).val / 1024 * 16 + (i 1).val / 1024 * 4 + 3, hlt⟩ (0 : Fin 2) * 1024 + 1024
      rw [e0]
      show ((i 0).val / 1024 * 16 + (i 1).val / 1024 * 4 + 3) / 16 * 1024 ≤ (i 0).val
        ∧ (i 0).val < ((i 0).val / 1024 * 16 + (i 1).val / 1024 * 4 + 3) / 16 * 1024 + 1024
      omega
    | ⟨1, _⟩ =>
      show win0_2.index ⟨(i 0).val / 1024 * 16 + (i 1).val / 1024 * 4 + 3, hlt⟩ (1 : Fin 2) * 1024 ≤ (i 1).val
        ∧ (i 1).val < win0_2.index ⟨(i 0).val / 1024 * 16 + (i 1).val / 1024 * 4 + 3, hlt⟩ (1 : Fin 2) * 1024 + 1024
      rw [e1]
      show ((i 0).val / 1024 * 16 + (i 1).val / 1024 * 4 + 3) / 4 % 4 * 1024 ≤ (i 1).val
        ∧ (i 1).val < ((i 0).val / 1024 * 16 + (i 1).val / 1024 * 4 + 3) / 4 % 4 * 1024 + 1024
      omega

/-- So the region's result array ends at the product. -/
theorem final (c : Dev nD) : (dats m 0 c).arrAt 2 cfg0.N = product m c :=
  (dats m 0 c).arrAt_eq_of_cover 2 (product m c) (flushed_eq m c) cover

/-- The program's result: the product, reshaped to 4 × 2048 × 4096 by the line after the region. -/
theorem tail_eq (c : Dev nD) :
    Pipeline.afterTail₀ cfgs (dats m) 0 (V0 m) [hostOps1] c main_v25
      = shapeCast S4x2048x4096 (product m c) shapeCasts_S8192x4096_S4x2048x4096 := by
  unfold Pipeline.afterTail₀
  show StableHlo.after hostOps1 _ (Proc.devRef .tc main_v25) = _
  after_results
  rw [(Pipeline.withArrays_arr spec0 launch0.win.arr_inj c _ _ 2).trans (final m c)]
  rfl

/-- The run, read: the program's result at the reshaped product, the arguments as they were. -/
theorem run : θ_run defs (onTc (τ := τ) (main (F := Ideal))) ⟨m, fun _ => 0, ρ⟩ fun r => ∀ c : Dev nD,
      r.2.mem ((c.tc : Thread nD τ).loc main_v25) = shapeCast S4x2048x4096 (product m c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v25 (Pipeline.mem_restRefs_of main_v25 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.HostSide.lean ====
/-
  The two matrices the kernel multiplies, as functions of the program's arguments.

  Before the kernel runs, the program reshapes x from 4 × 2048 × 4096 to 8192 × 4096 (the left matrix), and
  builds the right matrix from the weight, the selected blocks and the index list by the same chain of
  operations the reference program uses: cut the weight into a 16 × 16 grid of 256 × 256 blocks, overwrite
  the listed blocks, and put the grid back together. That chain is never opened: it is the reference's own
  term, applied to the same arguments.
-/
import proofs.«110944_j9801115369812_1_alg».proof.Proof.BlockRead
import proofs.«110944_j9801115369812_1_alg».proof.Proof.Gen.ReferenceIdeal.Read
import Idealize.ShloMosaic.Lib.StableHlo.Run
import Idealize.ShloMosaic.Lib.Tactic

noncomputable section

open Idealize.ShloMosaic Idealize.ShloMosaic.TcCoe Idealize.SL.Sem

namespace Cert.KernelIdeal.HostSide

open Cert.KernelIdeal Cert.KernelIdeal.Gen Cert.KernelIdeal.Accumulated

variable (m : (ℓ : Loc nD τ sig) → Buf (Elt Ideal) ℓ)

/-- The left matrix is x with its two leading axes merged. -/
theorem lhs_eq (c : Dev nD) :
    lhsMat m c = shapeCast S8192x4096 (m ((c : Thread nD τ).loc main_arg0)) shapeCasts_S4x2048x4096_S8192x4096 := by
  have e : (V m c (Pipeline.arrRef spec0 0) : S8192x4096.Idx → EReal) = (V m c main_v23 : S8192x4096.Idx → EReal) := rfl
  rw [lhsMat_eq, e]
  simp only [V, V0, hostOps0, List.flatten_cons, List.flatten_nil, List.append_nil, List.cons_append, List.nil_append]
  after_results
  rfl

set_option maxHeartbeats 2000000 in
/-- The right matrix is the reference's patched weight, of the same arguments. -/
theorem rhs_eq (c : Dev nD) :
    rhsMat m c = Cert.ReferenceIdeal.Read.val_main_v22 (F := Ideal) (m ((c : Thread nD τ).loc main_arg1))
      (m ((c : Thread nD τ).loc main_arg2)) (m ((c : Thread nD τ).loc main_arg3)) := by
  have e : (V m c (Pipeline.arrRef spec0 1) : S4096x4096.Idx → EReal) = (V m c main_v22 : S4096x4096.Idx → EReal) := rfl
  rw [rhsMat_eq, e]
  simp only [V, V0, hostOps0, List.flatten_cons, List.flatten_nil, List.append_nil, List.cons_append, List.nil_append]
  after_results
  rfl

end Cert.KernelIdeal.HostSide

end
-- ==== Proof.RefSide.lean ====
/-
  The reference's result, entry by entry.

  The reference contracts the last axis of x with the second axis of the patched weight W: at (a, b, o) its
  result is Σ_k x(a, b, k) · W(o, k), with W kept as the unopened term of the arguments it is.
-/
import proofs.«110944_j9801115369812_1_alg».proof.Proof.Gen.ReferenceIdeal.Read

noncomputable section

open scoped BigOperators
open Idealize.ShloMosaic Idealize.ShloMosaic.ValueIdx

namespace Cert.ReferenceIdeal.RefValue

open Cert.ReferenceIdeal Cert.ReferenceIdeal.Read

/-- The reference's result at (a, b, o). -/
theorem result_apply (x0 : S4x2048x4096.Idx → EReal) (x1 : S8192x256.Idx → EReal) (x2 : S4096x4096.Idx → EReal)
    (x3 : (⟨S32x2, .i32⟩ : BufTy).Contents (Elt Ideal)) (a : Fin 4) (b : Fin 2048) (o : Fin 4096) :
    val_main_v23 (F := Ideal) x0 x1 x2 x3 (ix3 a b o)
      = ∑ k : Fin 4096, x0 (ix3 a b k) * val_main_v22 (F := Ideal) x1 x2 x3 (ix2 o k) := by
  rw [val_main_v23_apply]
  refine Finset.sum_congr rfl fun k _ => ?_
  have el : lidx_main_v23 (ix3 a b o) k = ix3 a b k := funext fun d => Fin.ext (by
    match d with
    | ⟨0, _⟩ => rfl
    | ⟨1, _⟩ => rfl
    | ⟨2, _⟩ => rfl)
  have er : ridx_main_v23 (ix3 a b o) k = ix2 o k := funext fun d => Fin.ext (by
    match d with
    | ⟨0, _⟩ => rfl
    | ⟨1, _⟩ => rfl)
  rw [el, er]

end Cert.ReferenceIdeal.RefValue

end
-- ==== Proof.Bridge.lean ====
/-
  The batched product against the product of the flattened rows.

  Merging the two leading axes of x (4 × 2048 × 4096 → 8192 × 4096), multiplying by Wᵀ, and splitting the rows
  again gives, at (a, b, o), the entry of the flat product at row 2048·a + b and column o, which is the dot
  product of x(a, b, ·) with row o of W: the reshapes only rename positions, row-major.
-/
import proofs.«110944_j9801115369812_1_alg».proof.Proof.LibBlockSum
import Idealize.ShloMosaic.Lib.Pipeline.Value
import Idealize.ShloMosaic.Lib.ValueIdx

noncomputable section

open scoped BigOperators

namespace Cert.BlockSum

open Idealize.ShloMosaic Idealize.ShloMosaic.ValueIdx

/-- The flat product reshaped back, read at (a, b, o): Σ_k x(a, b, k) · W(o, k). -/
theorem reshaped_mulT_apply (x : (⟨3, ![4, 2048, 4096]⟩ : Shape).Idx → EReal) (W : (⟨2, ![4096, 4096]⟩ : Shape).Idx → EReal)
    (h1 : (⟨3, ![4, 2048, 4096]⟩ : Shape).ShapeCasts ⟨2, ![8192, 4096]⟩)
    (h2 : (⟨2, ![8192, 4096]⟩ : Shape).ShapeCasts ⟨3, ![4, 2048, 4096]⟩)
    (a : Fin 4) (b : Fin 2048) (o : Fin 4096) :
    shapeCast (⟨3, ![4, 2048, 4096]⟩ : Shape) (mulT (shapeCast (⟨2, ![8192, 4096]⟩ : Shape) x h1) W) h2 (ix3 a b o)
      = ∑ k : Fin 4096, x (ix3 a b k) * W (ix2 o k) := by
  have ha : a.val < 4 := a.isLt
  have hb : b.val < 2048 := b.isLt
  have hr : a.val * 2048 + b.val < 8192 := by omega
  rw [shapeCast_apply _ h2 (ix3 a b o) (ix2 ⟨a.val * 2048 + b.val, hr⟩ o)
    (by rw [Shape.rowMajor_val_two, Shape.rowMajor_val_three]; rfl)]
  show ∑ k : Fin 4096, shapeCast (⟨2, ![8192, 4096]⟩ : Shape) x h1 (ix2 ⟨a.val * 2048 + b.val, hr⟩ k) * W (ix2 o k) = _
  refine Finset.sum_congr rfl fun k _ => ?_
  rw [shapeCast_apply x h1 (ix2 ⟨a.val * 2048 + b.val, hr⟩ k) (ix3 a b k)
    (by rw [Shape.rowMajor_val_two, Shape.rowMajor_val_three]; rfl)]

end Cert.BlockSum

end
-- ==== Proof.lean ====
/-
  A blocked matrix product against one whole contraction, over the extended reals.

  Both programs first build the same patched weight W from the weight, the selected blocks and the index list
  (the same chain of operations, applied to the same arguments; it is never opened). The reference then
  contracts x with W: its result at (a, b, o) is Σ_{k < 4096} x(a, b, k) · W(o, k). The kernel flattens x to
  8192 rows, and for each 1024 × 1024 tile of the result runs four grid steps along the contraction axis:
  the first starts from zero, each adds the next 1024 columns' dot products to a carried block, the last
  step's block is written back. The written tiles cover the result, which is then reshaped to 4 × 2048 × 4096.
  Cutting a sum into four consecutive stretches and adding them in order is the same sum: addition on the
  extended reals is associative and commutative with the infinities included, so nothing has to be finite
  and the precondition is not used. Narrowing the operands to a shorter float format before the product is
  the identity at the extended reals, and the sanctioned idealization rewrote nothing.
-/
import proofs.«110944_j9801115369812_1_alg».proof.Defs
import proofs.«110944_j9801115369812_1_alg».proof.Proof.Gen.Kernel
import proofs.«110944_j9801115369812_1_alg».proof.Proof.Gen.Kernel.Frame
import proofs.«110944_j9801115369812_1_alg».proof.Proof.Gen.KernelIdeal
import proofs.«110944_j9801115369812_1_alg».proof.Proof.Gen.KernelIdeal.Frame
import proofs.«110944_j9801115369812_1_alg».proof.Proof.Gen.ReferenceIdeal
import proofs.«110944_j9801115369812_1_alg».proof.Proof.Gen.ReferenceIdeal.Run
import proofs.«110944_j9801115369812_1_alg».proof.Proof.Gen.ReferenceIdeal.Read
import proofs.«110944_j9801115369812_1_alg».proof.Proof.Gen.Pre_finite_inputs
import proofs.«110944_j9801115369812_1_alg».proof.Proof.Result
import proofs.«110944_j9801115369812_1_alg».proof.Proof.HostSide
import proofs.«110944_j9801115369812_1_alg».proof.Proof.RefSide
import proofs.«110944_j9801115369812_1_alg».proof.Proof.Bridge

noncomputable section

namespace Cert.Proof

open Idealize.ShloMosaic Idealize.ShloMosaic.TcCoe Idealize.SL.Sem Idealize.ShloMosaic.ValueIdx

/-- The kernel's value and the reference's are one function of the arguments: the flat product reshaped back
    is the batched contraction, entry by entry, whatever the patched weight is. -/
theorem values_eq (x0 : Cert.ReferenceIdeal.S4x2048x4096.Idx → EReal) (x1 : Cert.ReferenceIdeal.S8192x256.Idx → EReal)
    (x2 : Cert.ReferenceIdeal.S4096x4096.Idx → EReal)
    (x3 : (⟨Cert.ReferenceIdeal.S32x2, .i32⟩ : BufTy).Contents (Elt Ideal))
    (h1 : Cert.KernelIdeal.S4x2048x4096.ShapeCasts Cert.KernelIdeal.S8192x4096)
    (h2 : Cert.KernelIdeal.S8192x4096.ShapeCasts Cert.KernelIdeal.S4x2048x4096) :
    Cert.ReferenceIdeal.Read.val_main_v23 (F := Ideal) x0 x1 x2 x3
      = shapeCast Cert.KernelIdeal.S4x2048x4096
          (Cert.BlockSum.mulT (shapeCast Cert.KernelIdeal.S8192x4096 x0 h1)
            (Cert.ReferenceIdeal.Read.val_main_v22 (F := Ideal) x1 x2 x3)) h2 := by
  funext i
  obtain ⟨a, b, o, rfl⟩ : ∃ (a : Fin 4) (b : Fin 2048) (o : Fin 4096), i = ix3 a b o := ⟨i 0, i 1, i 2, eq_ix3 i⟩
  rw [Cert.ReferenceIdeal.RefValue.result_apply]
  exact (Cert.BlockSum.reshaped_mulT_apply x0 _ h1 h2 a b o).symm

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end, from arguments that agree, at the same array: the kernel's at the flat product of the
    merged x with the patched weight, reshaped back; the reference's at the batched contraction. -/
theorem algebraic : Cert.algebraic_KernelIdeal_ReferenceIdeal := by
  intro m ρ m' ρ' _ hagree
  refine ⟨fun c => shapeCast Cert.KernelIdeal.S4x2048x4096 (Cert.KernelIdeal.Result.product m c)
    Cert.KernelIdeal.Facts₀.shapeCasts_S8192x4096_S4x2048x4096, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2.1, (hagree c).2.2.1, (hagree c).2.2.2]
  show _ = shapeCast Cert.KernelIdeal.S4x2048x4096
    (Cert.BlockSum.mulT (Cert.KernelIdeal.Accumulated.lhsMat m c) (Cert.KernelIdeal.Accumulated.rhsMat m c)) _
  rw [Cert.KernelIdeal.HostSide.lhs_eq m c, Cert.KernelIdeal.HostSide.rhs_eq m c]
  exact values_eq _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
